-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S640000 32) (main_arg2 : IVec S640000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S10000x128 : Shape := ⟨2, ![10000, 128]⟩

abbrev nBuf : Space → Nat
  | .hbm => 21
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S50000x128, .f32⟩
  | .hbm, ⟨16, _⟩ => ⟨S640000x1, .i32⟩
  | .hbm, ⟨17, _⟩ => ⟨S50000x128, .f32⟩
  | .hbm, ⟨18, _⟩ => ⟨S128x128, .f32⟩
  | .hbm, ⟨19, _⟩ => ⟨S1x128, .f32⟩
  | .hbm, ⟨20, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S50000x128, .f32⟩
  | .hbm, ⟨16, _⟩ => ⟨S640000x1, .i32⟩
  | .hbm, ⟨17, _⟩ => ⟨S50000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_1_0_0_n_n_wf : DotDims.WF S50000x128 S128x128 S50000x128 [1] [1] [0] [0] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.Layer.lean ====
/-
  A dense layer followed by a rectifier, as a function of arrays over the extended reals.

  For a matrix `A` of 50000 rows and 128 columns (one row of aggregated features per node), a weight matrix
  `W` indexed (output feature, input feature) and a bias vector `b`, the layer's value at row `n` and
  output feature `o` is

      max (Σ_f A[n, f] · W[o, f] + b[o]) 0.

  The same value is reached from the weight matrix given transposed, indexed (input feature, output feature),
  and the bias given as a matrix of one row: transposing twice and adding a unit axis change nothing of the
  entries read. No property of the extended reals is used beyond what `max`, `+`, `·` and the finite sum
  are: the two spellings sum the same products in the same order.
-/
import Idealize.ShloMosaic.PureOps.Ideal
import Idealize.ShloMosaic.Lib.ValueIdx
import Idealize.ShloMosaic.Lib.ValueLayout

noncomputable section

namespace Cert.DenseRelu

open Idealize.ShloMosaic Idealize.ShloMosaic.ValueIdx

/-- The layer with the weights indexed (output feature, input feature) and the bias a vector. -/
def layer (A : (⟨2, ![50000, 128]⟩ : Shape).Idx → EReal) (W : (⟨2, ![128, 128]⟩ : Shape).Idx → EReal)
    (b : (⟨1, ![128]⟩ : Shape).Idx → EReal) : (⟨2, ![50000, 128]⟩ : Shape).Idx → EReal :=
  fun i => max ((∑ k : Fin 128, A (ix2 (i 0) k) * W (ix2 (i 1) k)) + b (ix1 (i 1))) 0

/-- The layer with the weights indexed (input feature, output feature) and the bias a matrix of one row. -/
def layerT (A : (⟨2, ![50000, 128]⟩ : Shape).Idx → EReal) (Wt : (⟨2, ![128, 128]⟩ : Shape).Idx → EReal)
    (b2 : (⟨2, ![1, 128]⟩ : Shape).Idx → EReal) : (⟨2, ![50000, 128]⟩ : Shape).Idx → EReal :=
  fun i => max ((∑ k : Fin 128, A (ix2 (i 0) k) * Wt (ix2 k (i 1))) + b2 (ix2 (0 : Fin 1) (i 1))) 0

/-- With the transposed weights and the bias as one row, the second spelling is the first: entry (f, o) of the
    transpose is entry (o, f) of the matrix, and entry (0, o) of the one-row matrix is entry o of the vector. -/
theorem layerT_transpose (A : (⟨2, ![50000, 128]⟩ : Shape).Idx → EReal) (W : (⟨2, ![128, 128]⟩ : Shape).Idx → EReal)
    (b : (⟨1, ![128]⟩ : Shape).Idx → EReal)
    (hT : (⟨2, ![128, 128]⟩ : Shape).Transposes [1, 0] ⟨2, ![128, 128]⟩)
    (hC : (⟨1, ![128]⟩ : Shape).ShapeCasts ⟨2, ![1, 128]⟩) :
    layerT A (transpose ⟨2, ![128, 128]⟩ [1, 0] W hT) (shapeCast ⟨2, ![1, 128]⟩ b hC) = layer A W b := by
  funext i
  unfold layerT layer
  rw [shapeCast_a_1a_apply b hC (0 : Fin 1) (i 1)]
  refine congrArg (fun s => max (s + b (ix1 (i 1))) 0) (Finset.sum_congr rfl fun k _ => ?_)
  rw [transpose_ix2_apply W hT k (i 1)]

end Cert.DenseRelu

end
-- ==== Proof.RefLayer.lean ====
/-
  The reference's result, read index by index, is the dense layer with rectifier applied to its own aggregated
  features: at row `n` and output feature `o` the contraction of the aggregate's row `n` with the weights' row `o`,
  plus the bias at `o`, cut below at zero. The aggregated features (rows of the feature table gathered per edge and
  summed into the edge's destination node) enter only as an array; nothing of how they are computed is used.
-/
import proofs.«129474_j33913061769301_2_alg».proof.Proof.Gen.ReferenceIdeal.Read
import proofs.«129474_j33913061769301_2_alg».proof.Proof.Layer

noncomputable section

namespace Cert.ReferenceIdeal.RefLayer

open Cert.ReferenceIdeal Cert.ReferenceIdeal.Gen Cert.ReferenceIdeal.Read Idealize.ShloMosaic Idealize.ShloMosaic.ValueIdx

/-- The reference's last stage is the layer of its aggregated features, the weights and the bias. -/
theorem result_eq (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4 = Cert.DenseRelu.layer (val_main_v9 (F := Ideal) x0 x1 x2) x3 x4 := by
  funext i
  -- the operand indices of the contraction and of the two bias broadcasts, as coordinates
  have el : ∀ k : Fin 128, lidx_main_v10 i k = ix2 (i 0) k := fun k => funext fun a => by
    match a with | ⟨0, _⟩ => rfl | ⟨1, _⟩ => rfl
  have er : ∀ k : Fin 128, ridx_main_v10 i k = ix2 (i 1) k := fun k => funext fun a => by
    match a with | ⟨0, _⟩ => rfl | ⟨1, _⟩ => rfl
  have eb : idx_main_v11 (idx_main_v12 i) = ix1 (i 1) := funext fun a => by
    match a with | ⟨0, _⟩ => rfl
  rw [val_main_v14_apply, val_main_v13_apply, val_main_v10_apply, val_main_v12_apply, val_main_v11_apply,
    val_main_call0_v0_apply, val_main_call0_cst_apply]
  simp only [el, er, eb]
  unfold Cert.DenseRelu.layer
  show max (_ + _) (Ideal.ofBits .f32 0x00000000#32) = _
  rw [Ideal.ofBits_zero_f32]
  rfl

end Cert.ReferenceIdeal.RefLayer

end
-- ==== Proof.Payload.lean ====
/-
  What the kernel body stores, read at one entry of its block. The body multiplies the block of 10000 rows of
  aggregated features by the whole (input feature × output feature) weight matrix, adds the one-row bias to every
  row and cuts the sum below at zero. Over the extended reals the narrowing of the two factors to a shorter float
  format is the identity and the matrix product into a zero accumulator is the plain sum of products, so the
  entry at row `p` and output feature `q` of the stored block is

      max (Σ_k X[p, k] · Wt[k, q] + B[0, q]) 0.
-/
import proofs.«129474_j33913061769301_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.ValueIdx

/-- The left operand's index of the product at output entry `j` and contraction index `q`: row of `j`, … -/
theorem lhs_0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … column the contraction index; -/
theorem lhs_1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- the right operand's: row the contraction index, … -/
theorem rhs_0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- … column of `j`. -/
theorem rhs_1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's matrix product into the zero accumulator, at entry (p, q): the sum over the 128 input features of
    the products of the left row `p` and the right column `q`. -/
theorem product_apply (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The stored block at entry (p, q), from the three loaded blocks. -/
theorem stored_apply (x0 : Vec Ideal S10000x128 .f32) (x1 : Vec Ideal S128x128 .f32) (x2 : Vec Ideal S1x128 .f32)
    (p : Fin 10000) (q : Fin 128) :
    k0_pay1 x0 x1 x2 (ix2 p q) = max ((∑ k : Fin 128, x0 (ix2 p k) * x1 (ix2 k q)) + x2 (ix2 (0 : Fin 1) q)) 0 := by
  unfold k0_pay1
  rw [maximumf_apply, addf_apply, broadcast_apply, product_apply, shapeCast_self, shapeCast_self, shapeCast_self,
    broadcastTo_1b_ab_apply]
  show max (_ + _) (Ideal.ofBits .f32 0x00000000#32) = _
  rw [Ideal.ofBits_zero_f32]
  rfl

end Cert.KernelIdeal.Body

end
-- ==== Proof.Blocks.lean ====
/-
  From blocks to the array. The grid has five points; point `t` reads rows 10000·t … 10000·t + 9999 of the
  aggregated features, the whole transposed weight matrix and the whole one-row bias, and writes back rows
  10000·t … 10000·t + 9999 of the result. An entry of the stored block depends on ONE row of the block of
  aggregated features, which is the same row of the array, so what point `t` writes back is block `t` of one
  function of the three arrays as the region finds them — the dense layer with rectifier in its transposed
  spelling. The five row blocks tile the 50000 rows (row `r` is in block `r / 10000`), so after the run the
  result array is that function everywhere.
-/
import proofs.«129474_j33913061769301_2_alg».proof.Proof.Gen.KernelIdeal.Value
import proofs.«129474_j33913061769301_2_alg».proof.Proof.Layer
import proofs.«129474_j33913061769301_2_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at a grid point: the aggregated features and the result move together down the rows, one
    block per point; the weights and the bias stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the block of aggregated features at point `t` is entry (10000·t + p, k) of the array. -/
theorem features_block (c : Dev nD) (t : Fin cfg0.N) (y : S10000x128.Idx) (i : S50000x128.Idx)
    (h0 : (i 0).val = t.val * 10000 + (y 0).val) (h1 : (i 1).val = (y 1).val) :
    (iblk m c 0 t : Vec Ideal S10000x128 .f32) y = (V m c main_v9 : S50000x128.Idx → EReal) i := by
  obtain ⟨e00, e01, -⟩ := block_indices t
  show V m c main_v9 (((cfg0.win 0).blk t).view.emb y) = V m c main_v9 i
  refine congrArg _ (funext fun a => Fin.ext ?_)
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The block of weights at any point is the whole transposed weight matrix. -/
theorem weights_block (c : Dev nD) (t : Fin cfg0.N) (y : S128x128.Idx) :
    (iblk m c 1 t : Vec Ideal S128x128 .f32) y = (V m c main_v10 : S128x128.Idx → EReal) y := by
  obtain ⟨-, -, e10, e11, -⟩ := block_indices t
  show V m c main_v10 (((cfg0.win 1).blk t).view.emb y) = V m c main_v10 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The block of the bias at any point is the whole one-row bias. -/
theorem bias_block (c : Dev nD) (t : Fin cfg0.N) (y : S1x128.Idx) :
    (iblk m c 2 t : Vec Ideal S1x128 .f32) y = (V m c main_v11 : S1x128.Idx → EReal) y := by
  obtain ⟨-, -, -, -, e20, e21, -⟩ := block_indices t
  show V m c main_v11 (((cfg0.win 2).blk t).view.emb y) = V m c main_v11 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- An entry of the stored block is the layer's value at the array entry it lands on, when the block's row of
    features is that array row and the other two blocks are the whole arrays: stated for any three loaded
    blocks and any three arrays. -/
theorem stored_eq_layer (A : S50000x128.Idx → EReal) (Wt : S128x128.Idx → EReal) (B : S1x128.Idx → EReal)
    (x0 : Vec Ideal S10000x128 .f32) (x1 : Vec Ideal S128x128 .f32) (x2 : Vec Ideal S1x128 .f32)
    (p : Fin 10000) (q : Fin 128) (n : Fin 50000)
    (hA : ∀ k : Fin 128, x0 (ix2 p k) = A (ix2 n k)) (hW : ∀ k : Fin 128, x1 (ix2 k q) = Wt (ix2 k q))
    (hB : x2 (ix2 (0 : Fin 1) q) = B (ix2 (0 : Fin 1) q)) :
    k0_pay1 x0 x1 x2 (ix2 p q) = Cert.DenseRelu.layerT A Wt B (ix2 n q) := by
  rw [Cert.KernelIdeal.Body.stored_apply, hB]
  show _ = max ((∑ k : Fin 128, A (ix2 n k) * Wt (ix2 k q)) + B (ix2 (0 : Fin 1) q)) 0
  exact congrArg (fun s => max (s + B (ix2 (0 : Fin 1) q)) 0) (Finset.sum_congr rfl fun k _ => by rw [hA k, hW k])

/-- Entry `j` of what the body stores at point `t` is the layer's value at the array entry under it. -/
theorem stored_entry (c : Dev nD) (t : Fin cfg0.N) (j : S10000x128.Idx) :
    k0_pay1 (iblk m c 0 t) (iblk m c 1 t) (iblk m c 2 t) j
      = Cert.DenseRelu.layerT (V m c main_v9) (V m c main_v10) (V m c main_v11) (((cfg0.win 3).blk t).view.emb j) := by
  obtain ⟨p, q, rfl⟩ : ∃ (p : Fin 10000) (q : Fin 128), j = ix2 p q := ⟨j 0, j 1, eq_ix2 j⟩
  obtain ⟨-, -, -, -, -, -, e30, e31⟩ := block_indices t
  have ht : t.val < 5 := by have h := t.isLt; have hN : cfg0.N = 5 := N_0; omega
  have hp : p.val < 10000 := p.isLt
  have hemb : ((cfg0.win 3).blk t).view.emb (ix2 p q) = ix2 (⟨t.val * 10000 + p.val, by omega⟩ : Fin 50000) q :=
    funext fun a => Fin.ext (by
      match a with
      | ⟨0, _⟩ => show win0_3.index t (0 : Fin 2) * 10000 + 1 * p.val = t.val * 10000 + p.val; omega
      | ⟨1, _⟩ => show win0_3.index t (1 : Fin 2) * 128 + 1 * q.val = q.val; omega)
  rw [hemb]
  exact stored_eq_layer (V m c main_v9) (V m c main_v10) (V m c main_v11) (iblk m c 0 t) (iblk m c 1 t) (iblk m c 2 t)
    p q ⟨t.val * 10000 + p.val, by omega⟩
    (fun k => features_block m c t (ix2 p k) (ix2 (⟨t.val * 10000 + p.val, by omega⟩ : Fin 50000) k) rfl rfl)
    (fun k => weights_block m c t (ix2 k q)) (bias_block m c t (ix2 (0 : Fin 1) q))

/-- WHAT POINT `t` WRITES BACK is block `t` of the layer of the three arrays as the region finds them. -/
theorem flushed_eq (c : Dev nD) (t : Fin cfg0.N) :
    (dats m 0 c).flushed 3 t = ((cfg0.win 3).blk t).view.read (Elt Ideal)
      (Cert.DenseRelu.layerT (V m c main_v9) (V m c main_v10) (V m c main_v11)) := by
  rw [Cert.KernelIdeal.Value.flushed3]
  unfold out0_3
  rw [View.canon_unit_zero zero_offsets]
  simp only [View.ld_unit_zero (S := S10000x128) zero_offsets, View.ld_unit_zero (S := S128x128) zero_offsets,
    View.ld_unit_zero (S := S1x128) zero_offsets]
  funext j
  exact stored_entry m c t j

/-- An entry of the result array is in point `t`'s block iff its row is in rows 10000·t … 10000·t + 9999. -/
theorem mem_block (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v12).slice (win0_3.rect t)).set ↔ _
  rw [View.set_slice_whole, Rect.mem_set_unit]
  exact Iff.rfl

/-- Every entry of the result array is in some point's block: row `r` is in block `r / 10000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 10000 < cfg0.N := by rw [show cfg0.N = 5 from N_0]; omega
  obtain ⟨-, -, -, -, -, -, e30, e31⟩ := block_indices ⟨(i 0).val / 10000, hlt⟩
  refine ⟨⟨(i 0).val / 10000, hlt⟩, flush0_3 _, ?_⟩
  rw [mem_block]
  intro a
  match a with
  | ⟨0, _⟩ =>
    show win0_3.index ⟨(i 0).val / 10000, hlt⟩ (0 : Fin 2) * 10000 ≤ (i 0).val ∧ (i 0).val < win0_3.index ⟨(i 0).val / 10000, hlt⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, hlt⟩ (1 : Fin 2) * 128 ≤ (i 1).val ∧ (i 1).val < win0_3.index ⟨(i 0).val / 10000, hlt⟩ (1 : Fin 2) * 128 + 128
    rw [e31]; omega

/-- THE RESULT ARRAY after the run: the layer of the three arrays as the region finds them. -/
theorem final (c : Dev nD) :
    (dats m 0 c).arrAt 3 cfg0.N = Cert.DenseRelu.layerT (V m c main_v9) (V m c main_v10) (V m c main_v11) :=
  (dats m 0 c).arrAt_eq_of_cover 3 _ (fun t _ => flushed_eq m c t) covered

end Cert.KernelIdeal.Blocks

end
-- ==== Proof.KernelRun.lean ====
/-
  The kernel program's run, read. Before the region the program computes, on the host, the aggregated features
  (rows of the feature table gathered per edge and summed into the edge's destination node), the transpose of the
  weight matrix and the bias as a matrix of one row; the region then leaves in the result array the dense layer
  with rectifier of those three arrays, in its transposed spelling. The host computation of the aggregated
  features is, operation for operation, the one the reference program performs, so it is carried as the
  reference's own term of the three arguments it reads and never opened; transposing the transpose and reading
  the one-row bias give the layer in its plain spelling.
-/
import proofs.«129474_j33913061769301_2_alg».proof.Proof.Blocks
import proofs.«129474_j33913061769301_2_alg».proof.Proof.Gen.ReferenceIdeal.Read
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The region finds the weights transposed: indexed (input feature, output feature). -/
theorem weights_at_entry (c : Dev nD) :
    (V m c main_v10 : S128x128.Idx → EReal)
      = transpose S128x128 [1, 0] (m ((c : Thread nD τ).loc main_arg3)) transposes_S128x128_S128x128_1_0 := by
  dsimp only [Gen.V, Gen.hostOps0]; after_results <;> rfl

/-- The region finds the bias as a matrix of one row. -/
theorem bias_at_entry (c : Dev nD) :
    (V m c main_v11 : S1x128.Idx → EReal)
      = shapeCast S1x128 (m ((c : Thread nD τ).loc main_arg4)) shapeCasts_S128_S1x128 := by
  dsimp only [Gen.V, Gen.hostOps0]; after_results <;> rfl

/-- The region finds the aggregated features the reference program computes from the same three arguments:
    the two programs' host operations up to there are the same, one for one. -/
theorem features_at_entry (c : Dev nD) :
    (V m c main_v9 : S50000x128.Idx → EReal)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]; after_results <;> rfl

/-- The result array after the run, as a function of the five arguments. -/
abbrev result (c : Dev nD) : S50000x128.Idx → EReal :=
  Cert.DenseRelu.layer
    (Cert.ReferenceIdeal.Read.val_main_v9 (F := Ideal) (m ((c : Thread nD τ).loc main_arg0))
      (m ((c : Thread nD τ).loc main_arg1)) (m ((c : Thread nD τ).loc main_arg2)))
    (m ((c : Thread nD τ).loc main_arg3)) (m ((c : Thread nD τ).loc main_arg4))

/-- The result array ends at `result`. -/
theorem final_result (c : Dev nD) : (dats m 0 c).arrAt 3 cfg0.N = result m c := by
  rw [final m c, weights_at_entry m c, bias_at_entry m c, features_at_entry m c]
  exact Cert.DenseRelu.layerT_transpose _ _ _ _ _

/-- The run: every weakly fair execution ends with the result array at the layer of the aggregated features, the
    weights and the bias, and the five arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_result m c), (h c).2⟩)
    (Cert.KernelIdeal.Value.run_blocks m ρ)

end Cert.KernelIdeal.Blocks

end
-- ==== Proof.lean ====
/-
  A graph network's node update: gather the source node's features along every edge, sum them into the edge's
  destination node, apply a dense layer and cut below at zero. The kernel program does the gather and the sum
  on the host, transposes the weights, and runs the dense layer with the rectifier in a kernel over five
  blocks of 10000 rows; the reference does all of it on the host, contracting against the weights untransposed.

  Over the extended reals both programs end with the same array: at node `n` and output feature `o`,

      max (Σ_f agg[n, f] · W[o, f] + b[o]) 0,

  where `agg` is the summed gather, computed by the same host operations in both programs and never opened.
  The kernel's side: narrowing the factors of the matrix product to a shorter float format is the identity, the
  product into a zero accumulator is the plain sum of products, each stored entry depends on one row of the block
  of aggregated features, and the five row blocks tile the array; entry (f, o) of the transposed weights is entry
  (o, f) of the weights. The reference's side is its last stage read at an index. The two sums run over the same
  products in the same order, so no finiteness of the inputs is used. The three frames are the generated run of
  each program; the idealization rewrote no operation, so there is nothing to preserve beyond the text itself.
-/
import proofs.«129474_j33913061769301_2_alg».proof.Defs
import proofs.«129474_j33913061769301_2_alg».proof.Proof.Gen.Kernel
import proofs.«129474_j33913061769301_2_alg».proof.Proof.Gen.Kernel.Skeleton
import proofs.«129474_j33913061769301_2_alg».proof.Proof.Gen.Kernel.Launch
import proofs.«129474_j33913061769301_2_alg».proof.Proof.Gen.Kernel.Points
import proofs.«129474_j33913061769301_2_alg».proof.Proof.Gen.Kernel.Frame
import proofs.«129474_j33913061769301_2_alg».proof.Proof.Gen.KernelIdeal
import proofs.«129474_j33913061769301_2_alg».proof.Proof.Gen.KernelIdeal.Skeleton
import proofs.«129474_j33913061769301_2_alg».proof.Proof.Gen.KernelIdeal.Launch
import proofs.«129474_j33913061769301_2_alg».proof.Proof.Gen.KernelIdeal.Points
import proofs.«129474_j33913061769301_2_alg».proof.Proof.Gen.KernelIdeal.Frame
import proofs.«129474_j33913061769301_2_alg».proof.Proof.Gen.KernelIdeal.Value
import proofs.«129474_j33913061769301_2_alg».proof.Proof.Gen.ReferenceIdeal
import proofs.«129474_j33913061769301_2_alg».proof.Proof.Gen.ReferenceIdeal.Run
import proofs.«129474_j33913061769301_2_alg».proof.Proof.Gen.ReferenceIdeal.Read
import proofs.«129474_j33913061769301_2_alg».proof.Proof.Gen.Pre_finite_inputs
import proofs.«129474_j33913061769301_2_alg».proof.Proof.RefLayer
import proofs.«129474_j33913061769301_2_alg».proof.Proof.KernelRun
import Idealize.ShloMosaic.Adequacy
import Idealize.ShloMosaic.Init

noncomputable section

namespace Cert.Proof

open Idealize.ShloMosaic Idealize.ShloMosaic.TcCoe Idealize.SL.Sem

/-- The kernel program, as printed, runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories agreeing on the five arguments, end with the dense layer with rectifier of the
    aggregated features, the weights and the bias. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefLayer.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
